-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x256 : Shape := ⟨2, ![128, 256]⟩
abbrev S5x128 : Shape := ⟨2, ![5, 128]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S5x128 : S_.BroadcastsInDim S5x128 (![] : Fin 0 → Fin S5x128.rank)
  reducesTo_S5x128_S_d0_1 : S5x128.ReducesTo [0, 1] S_

variable [Facts]

def fn_part1 {F : FTy → Type} [FloatOps F] (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  main_v18

def fn {F : FTy → Type} [FloatOps F] (main_arg0 : FVec F S100000x128 .f32) (main_arg1 : FVec F S50000x128 .f32) (main_arg2 : FVec F S128x256 .f32) (main_arg3 : FVec F S5x128 .f32) (main_arg4 : IVec S1000000 32) (main_arg5 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S5x128 .f32 := Host.absf main_arg3
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_v13 main_v16
-- ==== Kernel.lean ====
abbrev S100000x128 : Shape := ⟨2, ![100000, 128]⟩
abbrev S50000x128 : Shape := ⟨2, ![50000, 128]⟩
abbrev S128x256 : Shape := ⟨2, ![128, 256]⟩
abbrev S5x128 : Shape := ⟨2, ![5, 128]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1007616x128 : Shape := ⟨2, ![1007616, 128]⟩
abbrev S128x128 : Shape := ⟨2, ![128, 128]⟩
abbrev S5x1007616 : Shape := ⟨2, ![5, 1007616]⟩
abbrev S8192x128 : Shape := ⟨2, ![8192, 128]⟩
abbrev S5x8192 : Shape := ⟨2, ![5, 8192]⟩
abbrev S5x1000000 : Shape := ⟨2, ![5, 1000000]⟩
abbrev S1000000x5 : Shape := ⟨2, ![1000000, 5]⟩

abbrev nBuf : Space → Nat
  | .hbm => 39
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x256, .f32⟩
  | .hbm, ⟨3, _⟩ => ⟨S5x128, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x128, .f32⟩
  | .hbm, ⟨15, _⟩ => ⟨S1000000x128, .bf16⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S1000000x128, .bf16⟩
  | .hbm, ⟨26, _⟩ => ⟨S_, .i32⟩
  | .hbm, ⟨27, _⟩ => ⟨S_, .bf16⟩
  | .hbm, ⟨28, _⟩ => ⟨S1007616x128, .bf16⟩
  | .hbm, ⟨29, _⟩ => ⟨S_, .i32⟩
  | .hbm, ⟨30, _⟩ => ⟨S_, .bf16⟩
  | .hbm, ⟨31, _⟩ => ⟨S1007616x128, .bf16⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S5x1007616, .f32⟩
  | .hbm, ⟨37, _⟩ => ⟨S5x1000000, .f32⟩
  | .hbm, ⟨38, _⟩ => ⟨S1000000x5, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S128x128, .f32⟩
  | .local _ .vmem, ⟨5, _⟩ => ⟨S128x128, .f32⟩
  | .local _ .vmem, ⟨6, _⟩ => ⟨S5x128, .f32⟩
  | .local _ .vmem, ⟨7, _⟩ => ⟨S5x8192, .f32⟩
  | .local _ .vmem, ⟨8, _⟩ => ⟨S5x8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_call0_v0 : Ref sig .tc := ⟨.hbm, 27, rfl⟩
abbrev main_v16 : Ref sig .tc := ⟨.hbm, 28, rfl⟩
abbrev main_c_4 : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bitsLt_bf16_f32 : FTy.bits .bf16 < FTy.bits .f32
  pads_S1000000x128_S1007616x128_076160_000 : S1000000x128.Pads (![0, 0] : Fin 2 → Nat) ![7616, 0] ![0, 0] S1007616x128
  h_S_ : 0 < S_.numel
  slices_S128x256_S128x128_0_0 : S128x256.Slices ![0, 0] S128x128
  transposes_S128x128_S128x128_1_0 : S128x128.Transposes [1, 0] S128x128
  slices_S128x256_S128x128_0_128 : S128x256.Slices ![0, 128] S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5x128_S5x128_0_0 : ∀ a, (![0, 0] : Fin 2 → Nat) a + S5x128.size a ≤ S5x128.size a
  h_S5x128 : 0 < S5x128.numel
  inb_S5x8192_S5x8192_0_0 : ∀ a, (![0, 0] : Fin 2 → Nat) a + S5x8192.size a ≤ S5x8192.size a
  h_S5x8192 : 0 < S5x8192.numel
  slices_S5x1007616_S5x1000000_0_0 : S5x1007616.Slices ![0, 0] S5x1000000
  transposes_S5x1000000_S1000000x5_1_0 : S5x1000000.Transposes [1, 0] S1000000x5
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S8192x128_S128x128_S8192x128_1_0_0_1_n_n_wf : DotDims.WF S8192x128 S128x128 S8192x128 [1] [0] [0] [1] [] []
  dot_S5x128_S8192x128_S5x8192_1_1_0_0_n_n_wf : DotDims.WF S5x128 S8192x128 S5x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1007616x128.size a
  hwx0_0 : ∀ i : grid0.Coords, EltTy.bits .bf16 = 32 ∨ (Rect.block (s := S1007616x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1007616x128.size a
  hwx0_1 : ∀ i : grid0.Coords, EltTy.bits .bf16 = 32 ∨ (Rect.block (s := S1007616x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x128.size a ≤ S5x128.size a
  hwx0_4 : ∀ i : grid0.Coords, EltTy.bits .f32 = 32 ∨ (Rect.block (s := S5x128) S5x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5x8192.size a ≤ S5x1007616.size a
  hwx0_5 : ∀ i : grid0.Coords, EltTy.bits .f32 = 32 ∨ (Rect.block (s := S5x1007616) S5x8192.size (cc0_transform_5 i) (hinb0_5 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S5x128_S8192x128_S5x8192_1_1_0_0_n_n : DotDims S5x128 S8192x128 S5x8192 where
  lhsContracting := [1]
  rhsContracting := [1]
  lhsNonContracting := [0]
  rhsNonContracting := [0]
  lhsBatch := []
  rhsBatch := []
  wf := dot_S5x128_S8192x128_S5x8192_1_1_0_0_n_n_wf

abbrev win0_0 : Pipeline.Window sig grid0 :=
  Pipeline.Window.ofSpec (Memref.whole main_v16) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S5x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x256 : Shape := ⟨2, ![128, 256]⟩
abbrev S5x128 : Shape := ⟨2, ![5, 128]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S256x128 : Shape := ⟨2, ![256, 128]⟩
abbrev S128x5 : Shape := ⟨2, ![128, 5]⟩
abbrev S1000000x5 : Shape := ⟨2, ![1000000, 5]⟩

abbrev nBuf : Space → Nat
  | .hbm => 32
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x256, .f32⟩
  | .hbm, ⟨3, _⟩ => ⟨S5x128, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x128, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S1000000x256, .f32⟩
  | .hbm, ⟨25, _⟩ => ⟨S256x128, .f32⟩
  | .hbm, ⟨26, _⟩ => ⟨S1000000x128, .f32⟩
  | .hbm, ⟨27, _⟩ => ⟨S_, .f32⟩
  | .hbm, ⟨28, _⟩ => ⟨S1000000x128, .f32⟩
  | .hbm, ⟨29, _⟩ => ⟨S1000000x128, .f32⟩
  | .hbm, ⟨30, _⟩ => ⟨S128x5, .f32⟩
  | .hbm, ⟨31, _⟩ => ⟨S1000000x5, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  transposes_S128x256_S256x128_1_0 : S128x256.Transposes [1, 0] S256x128
  bcast_S_S1000000x128 : S_.BroadcastsInDim S1000000x128 (![] : Fin 0 → Fin S1000000x128.rank)
  transposes_S5x128_S128x5_1_0 : S5x128.Transposes [1, 0] S128x5
  gather_S100000x128_S1000000x1_S1000000x128_1_0_n_n_0_1_1128_wf : GatherDims.WF S100000x128 S1000000x1 S1000000x128 [1] [0] [] [0] [] 1 ![1, 128]
  gather_S50000x128_S1000000x1_S1000000x128_1_0_n_n_0_1_1128_wf : GatherDims.WF S50000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x5_S1000000x5_1_0_0_1_n_n_wf : DotDims.WF S1000000x128 S128x5 S1000000x5 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x5_S1000000x5_1_0_0_1_n_n : DotDims S1000000x128 S128x5 S1000000x5 where
  lhsContracting := [1]
  rhsContracting := [0]
  lhsNonContracting := [0]
  rhsNonContracting := [1]
  lhsBatch := []
  rhsBatch := []
  wf := dot_S1000000x128_S128x5_S1000000x5_1_0_0_1_n_n_wf

class Facts : Prop extends Facts₀ where

variable [Facts]
-- ==== Proof.Payload.lean ====
/-
  What the kernel body computes at one grid point, read at an index, at the ideal instance.

  The body loads a block `x0` of 8192 user rows, a block `x1` of 8192 item rows, the two transposed halves
  `x2`, `x3` of the first weight matrix (`128 × 128` each, indexed feature × hidden unit) and the second
  weight matrix `x4` (`5 × 128`), and stores the `5 × 8192` block whose entry at class `c` and row `r` is
  `∑ d, x4 c d * max (∑ k, x0 r k * x2 k d + ∑ k, x1 r k * x3 k d) 0`: two products into a zero
  accumulator added, rectified against zero, and contracted with `x4` over the hidden units.  The changes
  of float format on the way are the identity on the extended reals.
-/
import proofs.«160653_j76605036692176_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The operand indices of the two contractions, coordinate by coordinate -/

theorem rw_lhs_0 (i : S8192x128.Idx) (q : dot_S8192x128_S128x128_S8192x128_1_0_0_1_n_n.contr.Idx) : (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem rw_lhs_1 (i : S8192x128.Idx) (q : dot_S8192x128_S128x128_S8192x128_1_0_0_1_n_n.contr.Idx) : (dot_S8192x128_S128x128_S8192x128_1_0_0_1_n_n.lhsIdx i q 1).val = (q ⟨0, by decide⟩).val :=
  dot_S8192x128_S128x128_S8192x128_1_0_0_1_n_n.lhsIdx_val_of_single rfl i q
theorem rw_rhs_0 (i : S8192x128.Idx) (q : dot_S8192x128_S128x128_S8192x128_1_0_0_1_n_n.contr.Idx) : (dot_S8192x128_S128x128_S8192x128_1_0_0_1_n_n.rhsIdx i q 0).val = (q ⟨0, by decide⟩).val :=
  dot_S8192x128_S128x128_S8192x128_1_0_0_1_n_n.rhsIdx_val_of_single rfl i q
theorem rw_rhs_1 (i : S8192x128.Idx) (q : dot_S8192x128_S128x128_S8192x128_1_0_0_1_n_n.contr.Idx) : (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

theorem wr_lhs_0 (i : S5x8192.Idx) (q : dot_S5x128_S8192x128_S5x8192_1_1_0_0_n_n.contr.Idx) : (dot_S5x128_S8192x128_S5x8192_1_1_0_0_n_n.lhsIdx i q 0).val = (i 0).val := by
  unfold DotDims.lhsIdx
  rw [dif_neg (show ¬(0 : Fin S5x128.rank) ∈ dot_S5x128_S8192x128_S5x8192_1_1_0_0_n_n.lhsBatch by decide), dif_pos (show (0 : Fin S5x128.rank) ∈ dot_S5x128_S8192x128_S5x8192_1_1_0_0_n_n.lhsNonContracting by decide)]
  rfl
theorem wr_lhs_1 (i : S5x8192.Idx) (q : dot_S5x128_S8192x128_S5x8192_1_1_0_0_n_n.contr.Idx) : (dot_S5x128_S8192x128_S5x8192_1_1_0_0_n_n.lhsIdx i q 1).val = (q ⟨0, by decide⟩).val :=
  dot_S5x128_S8192x128_S5x8192_1_1_0_0_n_n.lhsIdx_val_of_single rfl i q
theorem wr_rhs_0 (i : S5x8192.Idx) (q : dot_S5x128_S8192x128_S5x8192_1_1_0_0_n_n.contr.Idx) : (dot_S5x128_S8192x128_S5x8192_1_1_0_0_n_n.rhsIdx i q 0).val = (i 1).val := by
  unfold DotDims.rhsIdx
  rw [dif_neg (show ¬(0 : Fin S8192x128.rank) ∈ dot_S5x128_S8192x128_S5x8192_1_1_0_0_n_n.rhsBatch by decide), dif_pos (show (0 : Fin S8192x128.rank) ∈ dot_S5x128_S8192x128_S5x8192_1_1_0_0_n_n.rhsNonContracting by decide)]
  rfl
theorem wr_rhs_1 (i : S5x8192.Idx) (q : dot_S5x128_S8192x128_S5x8192_1_1_0_0_n_n.contr.Idx) : (dot_S5x128_S8192x128_S5x8192_1_1_0_0_n_n.rhsIdx i q 1).val = (q ⟨0, by decide⟩).val :=
  dot_S5x128_S8192x128_S5x8192_1_1_0_0_n_n.rhsIdx_val_of_single rfl i q

/-! ## The two contractions as plain sums -/

/-- A `[8192,128] × [128,128]` product into the zero accumulator, at row `r` and column `d`: the sum
    over the 128 features. -/
theorem rows_times_weights (a : FVec Ideal S8192x128 .bf16) (b : FVec Ideal S128x128 .bf16) (r : Fin 8192) (d : Fin 128) :
    FloatOps.matmul dot_S8192x128_S128x128_S8192x128_1_0_0_1_n_n none a b (constant S8192x128 .f32 0x00000000#32) (ix2 r d)
      = ∑ k : Fin 128, a (ix2 r k) * b (ix2 k d) := by
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r d) ((contrEquiv1 dot_S8192x128_S128x128_S8192x128_1_0_0_1_n_n 128 rfl rfl).symm k) = ix2 r k :=
    funext fun x => Fin.ext (by
      match x with
      | ⟨0, _⟩ => exact rw_lhs_0 _ _
      | ⟨1, _⟩ => exact (rw_lhs_1 _ _).trans hk)
  have er : dot_S8192x128_S128x128_S8192x128_1_0_0_1_n_n.rhsIdx (ix2 r d) ((contrEquiv1 dot_S8192x128_S128x128_S8192x128_1_0_0_1_n_n 128 rfl rfl).symm k) = ix2 k d :=
    funext fun x => Fin.ext (by
      match x with
      | ⟨0, _⟩ => exact (rw_rhs_0 _ _).trans hk
      | ⟨1, _⟩ => exact rw_rhs_1 _ _)
  rw [el, er]

/-- A `[5,128] × [8192,128]` product contracting the second axis of both, into the zero accumulator, at
    class `c` and row `r`: the sum over the 128 hidden units. -/
theorem weights_times_rows (a : FVec Ideal S5x128 .bf16) (b : FVec Ideal S8192x128 .bf16) (c : Fin 5) (r : Fin 8192) :
    FloatOps.matmul dot_S5x128_S8192x128_S5x8192_1_1_0_0_n_n none a b (constant S5x8192 .f32 0x00000000#32) (ix2 c r)
      = ∑ d : Fin 128, a (ix2 c d) * b (ix2 r d) := by
  rw [Ideal.matmul_constant_zero_apply, ← Equiv.sum_comp (contrEquiv1 dot_S5x128_S8192x128_S5x8192_1_1_0_0_n_n 128 rfl rfl).symm]
  refine Finset.sum_congr rfl fun k _ => ?_
  have hk := contrEquiv1_symm_val dot_S5x128_S8192x128_S5x8192_1_1_0_0_n_n 128 rfl rfl k
  have el : dot_S5x128_S8192x128_S5x8192_1_1_0_0_n_n.lhsIdx (ix2 c r) ((contrEquiv1 dot_S5x128_S8192x128_S5x8192_1_1_0_0_n_n 128 rfl rfl).symm k) = ix2 c k :=
    funext fun x => Fin.ext (by
      match x with
      | ⟨0, _⟩ => exact wr_lhs_0 _ _
      | ⟨1, _⟩ => exact (wr_lhs_1 _ _).trans hk)
  have er : dot_S5x128_S8192x128_S5x8192_1_1_0_0_n_n.rhsIdx (ix2 c r) ((contrEquiv1 dot_S5x128_S8192x128_S5x8192_1_1_0_0_n_n 128 rfl rfl).symm k) = ix2 r k :=
    funext fun x => Fin.ext (by
      match x with
      | ⟨0, _⟩ => exact wr_rhs_0 _ _
      | ⟨1, _⟩ => exact (wr_rhs_1 _ _).trans hk)
  rw [el, er]

/-! ## The stored block -/

/-- The stored block at class `c` and row `r`. -/
theorem pay_apply (x0 x1 : FVec Ideal S8192x128 .bf16) (x2 x3 : FVec Ideal S128x128 .f32) (x4 : FVec Ideal S5x128 .f32)
    (c : Fin 5) (r : Fin 8192) :
    k0_pay1 (F := Ideal) x0 x1 x2 x3 x4 (ix2 c r)
      = ∑ d : Fin 128, x4 (ix2 c d)
          * max ((∑ k : Fin 128, x0 (ix2 r k) * x2 (ix2 k d)) + ∑ k : Fin 128, x1 (ix2 r k) * x3 (ix2 k d)) 0 := by
  unfold k0_pay1
  refine (weights_times_rows _ _ c r).trans ?_
  refine Finset.sum_congr rfl fun d _ => ?_
  refine congrArg (x4 (ix2 c d) * ·) ?_
  show max (FloatOps.matmul _ none _ _ _ (ix2 r d) + FloatOps.matmul _ none _ _ _ (ix2 r d)) (Ideal.ofBits .f32 0x00000000#32) = _
  rw [Ideal.ofBits_zero_f32, rows_times_weights, rows_times_weights]
  simp only [shapeCast_self]
  rfl

end Cert.KernelIdeal.Body

end
-- ==== Proof.Region.lean ====
/-
  The kernel's output array after the launch, as one function of the arrays the launch finds.

  The grid has 123 points; point `t` reads rows `8192 t … 8192 t + 8191` of the two padded row arrays, the
  whole of the two `128 × 128` weight halves and of the `5 × 128` second weight matrix, and writes back
  columns `8192 t … 8192 t + 8191` of the `5 × 1007616` output.  What it writes is the block of ONE
  function of those arrays (`paddedArr`: class `c`, padded row `r` ↦ the score of that row), and the 123
  column blocks tile the output, so the output ends holding that function.
-/
import proofs.«160653_j76605036692176_2_alg».proof.Proof.Gen.KernelIdeal.Frame
import proofs.«160653_j76605036692176_2_alg».proof.Proof.Payload
import Idealize.ShloMosaic.Lib.Pipeline.Value

noncomputable section

namespace Cert.KernelIdeal.Region

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The score of class `c` for padded row `r`, from the padded row arrays `A0`, `A1`, the transposed weight
    halves `A2`, `A3` and the second weight matrix `A4`. -/
def padded (A0 A1 : S1007616x128.Idx → EReal) (A2 A3 : S128x128.Idx → EReal) (A4 : S5x128.Idx → EReal)
    (c : Fin 5) (r : Fin 1007616) : EReal :=
  ∑ d : Fin 128, A4 (ix2 c d) * max ((∑ k : Fin 128, A0 (ix2 r k) * A2 (ix2 k d)) + ∑ k : Fin 128, A1 (ix2 r k) * A3 (ix2 k d)) 0

/-- The same as an array, classes by padded rows. -/
def paddedArr (A0 A1 : S1007616x128.Idx → EReal) (A2 A3 : S128x128.Idx → EReal) (A4 : S5x128.Idx → EReal) :
    S5x1007616.Idx → EReal :=
  fun i => padded A0 A1 A2 A3 A4 (i 0) (i 1)

/-- The printed index maps over the grid: the row windows and the output window move with the point, the
    weight windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-! ## Each input block, read where the array says -/

theorem blk0_apply (c : Dev nD) (t : Fin cfg0.N) (q : Fin 8192) (k : Fin 128) (r : Fin 1007616) (hr : r.val = t.val * 8192 + q.val) :
    (iblk m c 0 t : FVec Ideal S8192x128 .bf16) (ix2 q k) = (V m c main_v16 : S1007616x128.Idx → EReal) (ix2 r k) := by
  obtain ⟨e0, e1, -⟩ := idx_facts t
  unfold iblk
  rw [View.read_apply]
  show V m c main_v16 _ = V m c main_v16 _
  refine congrArg _ (funext fun a => Fin.ext ?_)
  match a with
  | ⟨0, _⟩ => show win0_0.index t (0 : Fin 2) * 8192 + 1 * q.val = r.val; rw [e0, hr]; omega
  | ⟨1, _⟩ => show win0_0.index t (1 : Fin 2) * 128 + 1 * k.val = k.val; rw [e1]; omega

theorem blk1_apply (c : Dev nD) (t : Fin cfg0.N) (q : Fin 8192) (k : Fin 128) (r : Fin 1007616) (hr : r.val = t.val * 8192 + q.val) :
    (iblk m c 1 t : FVec Ideal S8192x128 .bf16) (ix2 q k) = (V m c main_v17 : S1007616x128.Idx → EReal) (ix2 r k) := by
  obtain ⟨-, -, e0, e1, -⟩ := idx_facts t
  unfold iblk
  rw [View.read_apply]
  show V m c main_v17 _ = V m c main_v17 _
  refine congrArg _ (funext fun a => Fin.ext ?_)
  match a with
  | ⟨0, _⟩ => show win0_1.index t (0 : Fin 2) * 8192 + 1 * q.val = r.val; rw [e0, hr]; omega
  | ⟨1, _⟩ => show win0_1.index t (1 : Fin 2) * 128 + 1 * k.val = k.val; rw [e1]; omega

theorem blk2_apply (c : Dev nD) (t : Fin cfg0.N) (k d : Fin 128) :
    (iblk m c 2 t : FVec Ideal S128x128 .f32) (ix2 k d) = (V m c main_v19 : S128x128.Idx → EReal) (ix2 k d) := by
  obtain ⟨-, -, -, -, e0, e1, -⟩ := idx_facts t
  unfold iblk
  rw [View.read_apply]
  show V m c main_v19 _ = V m c main_v19 _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * d.val = d.val; rw [e1]; omega

theorem blk3_apply (c : Dev nD) (t : Fin cfg0.N) (k d : Fin 128) :
    (iblk m c 3 t : FVec Ideal S128x128 .f32) (ix2 k d) = (V m c main_v21 : S128x128.Idx → EReal) (ix2 k d) := by
  obtain ⟨-, -, -, -, -, -, e0, e1, -⟩ := idx_facts t
  unfold iblk
  rw [View.read_apply]
  show V m c main_v21 _ = V m c main_v21 _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * d.val = d.val; rw [e1]; omega

theorem blk4_apply (c : Dev nD) (t : Fin cfg0.N) (p : Fin 5) (d : Fin 128) :
    (iblk m c 4 t : FVec Ideal S5x128 .f32) (ix2 p d) = (V m c main_arg3 : S5x128.Idx → EReal) (ix2 p d) := by
  obtain ⟨-, -, -, -, -, -, -, -, e0, e1, -⟩ := idx_facts t
  unfold iblk
  rw [View.read_apply]
  show V m c main_arg3 _ = V m c main_arg3 _
  refine congrArg _ (funext fun a => Fin.ext ?_)
  match a with
  | ⟨0, _⟩ => show win0_4.index t (0 : Fin 2) * 5 + 1 * p.val = p.val; rw [e0]; omega
  | ⟨1, _⟩ => show win0_4.index t (1 : Fin 2) * 128 + 1 * d.val = d.val; rw [e1]; omega

/-! ## What a point writes back -/

/-- Point `t` writes back block `t` of `paddedArr` of the arrays as the launch finds them. -/
theorem flushed_eq (c : Dev nD) (t : Fin cfg0.N) :
    (dats m 0 c).flushed 5 t = ((cfg0.win 5).blk t).view.read (Elt Ideal)
      (paddedArr (V m c main_v16) (V m c main_v17) (V m c main_v19) (V m c main_v21) (V m c main_arg3)) := by
  show (cfg0.win 5).cut (grid0.coords t) ((dats m 0 c).after 5 t) = _
  rw [after0_5]
  unfold out0_5
  rw [View.canon_unit_zero hz]
  simp only [View.ld_unit_zero (S := S8192x128) hz, View.ld_unit_zero (S := S128x128) hz, View.ld_unit_zero (S := S5x128) hz]
  funext j
  obtain ⟨p, q, rfl⟩ : ∃ (p : Fin 5) (q : Fin 8192), j = ix2 p q := ⟨j 0, j 1, eq_ix2 j⟩
  obtain ⟨-, -, -, -, -, -, -, -, -, -, e50, e51⟩ := idx_facts t
  have hN : cfg0.N = 123 := N_0
  have hq : t.val * 8192 + q.val < 1007616 := by have := t.isLt; have := q.isLt; omega
  have hemb : ((cfg0.win 5).blk t).view.emb (ix2 p q) = ix2 p (⟨t.val * 8192 + q.val, hq⟩ : Fin 1007616) := by
    funext a
    apply Fin.ext
    match a with
    | ⟨0, _⟩ => show win0_5.index t (0 : Fin 2) * 5 + 1 * p.val = p.val; rw [e50]; omega
    | ⟨1, _⟩ => show win0_5.index t (1 : Fin 2) * 8192 + 1 * q.val = t.val * 8192 + q.val; rw [e51]; omega
  rw [View.read_apply, hemb]
  show k0_pay1 (F := Ideal) (iblk m c 0 t) (iblk m c 1 t) (iblk m c 2 t) (iblk m c 3 t) (iblk m c 4 t) (ix2 p q)
      = padded (V m c main_v16) (V m c main_v17) (V m c main_v19) (V m c main_v21) (V m c main_arg3) p ⟨t.val * 8192 + q.val, hq⟩
  refine (pay_apply (iblk m c 0 t) (iblk m c 1 t) (iblk m c 2 t) (iblk m c 3 t) (iblk m c 4 t) p q).trans ?_
  unfold padded
  refine Finset.sum_congr rfl fun d _ => ?_
  refine congrArg₂ (· * ·) (blk4_apply m c t p d) (congrArg (max · 0) (congrArg₂ (· + ·) (Finset.sum_congr rfl fun k _ => ?_) (Finset.sum_congr rfl fun k _ => ?_)))
  · exact congrArg₂ (· * ·) (blk0_apply m c t q k ⟨t.val * 8192 + q.val, hq⟩ rfl) (blk2_apply m c t k d)
  · exact congrArg₂ (· * ·) (blk1_apply m c t q k ⟨t.val * 8192 + q.val, hq⟩ rfl) (blk3_apply m c t k d)

/-! ## The blocks tile the output -/

/-- An index of the output is in point `t`'s block iff each coordinate is in the block's range on its axis. -/
theorem mem_blk5 (t : Fin cfg0.N) (i : S5x1007616.Idx) :
    i ∈ ((cfg0.win 5).blk t).view.set ↔ ∀ a : Fin 2, win0_5.index t a * S5x8192.size a ≤ (i a).val ∧ (i a).val < win0_5.index t a * S5x8192.size a + S5x8192.size a := by
  show i ∈ ((View.whole main_v22).slice (win0_5.rect t)).set ↔ _
  rw [View.set_slice_whole, Rect.mem_set_unit]
  exact Iff.rfl

/-- Column `r` of the output lies in the block of point `r / 8192`. -/
theorem cover (i : S5x1007616.Idx) : ∃ t : Fin cfg0.N, (cfg0.win 5).flush t = true ∧ i ∈ ((cfg0.win 5).blk t).view.set := by
  have h0 : (i 0).val < 5 := (i 0).isLt
  have h1 : (i 1).val < 1007616 := (i 1).isLt
  have hN : cfg0.N = 123 := N_0
  obtain ⟨t, ht⟩ : ∃ t : Fin cfg0.N, t.val = (i 1).val / 8192 := ⟨⟨(i 1).val / 8192, by rw [hN]; omega⟩, rfl⟩
  obtain ⟨-, -, -, -, -, -, -, -, -, -, e50, e51⟩ := idx_facts t
  refine ⟨t, flush0_5 t, ?_⟩
  rw [mem_blk5]
  intro a
  match a with
  | ⟨0, _⟩ =>
    show win0_5.index t (0 : Fin 2) * 5 ≤ (i 0).val ∧ (i 0).val < win0_5.index t (0 : Fin 2) * 5 + 5
    rw [e50]; omega
  | ⟨1, _⟩ =>
    show win0_5.index t (1 : Fin 2) * 8192 ≤ (i 1).val ∧ (i 1).val < win0_5.index t (1 : Fin 2) * 8192 + 8192
    rw [e51, ht]; omega

/-- The output array after the launch. -/
theorem final (c : Dev nD) : (dats m 0 c).arrAt 5 cfg0.N
    = paddedArr (V m c main_v16) (V m c main_v17) (V m c main_v19) (V m c main_v21) (V m c main_arg3) :=
  (dats m 0 c).arrAt_eq_of_cover 5 _ (fun t _ => flushed_eq m c t) cover

end Cert.KernelIdeal.Region

end
-- ==== Proof.Spec.lean ====
/-
  The edge scorer as one function of its operands, over the extended reals.

  For an edge `e` with gathered user row `hu e` and gathered item row `hv e` (128 features each), the
  hidden layer is `h e d = max (∑ k, hu e k * W1 d k + ∑ k, hv e k * W1 d (128 + k)) 0` for the 128 hidden
  units `d` — the weight matrix `W1 : 128 × 256` read as its left and right halves —, and the score of
  class `c` is `∑ d, W2 c d * h e d`.  A row of 256 products summed at once is the sum of its two halves
  (`sum_halves`): addition on the extended reals is commutative and associative, so no finiteness is
  needed for it.
-/
import Idealize.ShloMosaic.PureOps.Ideal
import Idealize.ShloMosaic.Lib.ValueIdx
import Mathlib.Algebra.BigOperators.Fin

noncomputable section

namespace Cert.EdgeMlp

open Idealize.ShloMosaic Idealize.ShloMosaic.ValueIdx

/-- Column `k` of the left half of a 256-wide row. -/
abbrev lo (k : Fin 128) : Fin 256 := ⟨k.val, by omega⟩
/-- Column `k` of the right half of a 256-wide row. -/
abbrev hi (k : Fin 128) : Fin 256 := ⟨128 + k.val, by omega⟩

/-- A sum over 256 columns is the sum over the left half plus the sum over the right half, in any
    commutative monoid. -/
theorem sum_halves {M : Type*} [AddCommMonoid M] (f : Fin 256 → M) :
    ∑ j : Fin 256, f j = (∑ k : Fin 128, f (lo k)) + ∑ k : Fin 128, f (hi k) :=
  Fin.sum_univ_add (a := 128) (b := 128) f

/-- Hidden unit `d` of edge `e`: the rectified sum of the user row against the left half of row `d` of
    `W1` and the item row against its right half. -/
def hiddenUnit (hu hv : (⟨2, ![1000000, 128]⟩ : Shape).Idx → EReal) (W1 : (⟨2, ![128, 256]⟩ : Shape).Idx → EReal)
    (e : Fin 1000000) (d : Fin 128) : EReal :=
  max ((∑ k : Fin 128, hu (ix2 e k) * W1 (ix2 d (lo k))) + ∑ k : Fin 128, hv (ix2 e k) * W1 (ix2 d (hi k))) 0

/-- The score of class `c` for edge `e`. -/
def scoreAt (hu hv : (⟨2, ![1000000, 128]⟩ : Shape).Idx → EReal) (W1 : (⟨2, ![128, 256]⟩ : Shape).Idx → EReal)
    (W2 : (⟨2, ![5, 128]⟩ : Shape).Idx → EReal) (e : Fin 1000000) (c : Fin 5) : EReal :=
  ∑ d : Fin 128, W2 (ix2 c d) * hiddenUnit hu hv W1 e d

/-- The whole result array, edges by classes. -/
def score (hu hv : (⟨2, ![1000000, 128]⟩ : Shape).Idx → EReal) (W1 : (⟨2, ![128, 256]⟩ : Shape).Idx → EReal)
    (W2 : (⟨2, ![5, 128]⟩ : Shape).Idx → EReal) : (⟨2, ![1000000, 5]⟩ : Shape).Idx → EReal :=
  fun j => scoreAt hu hv W1 W2 (j 0) (j 1)

theorem score_ix2 (hu hv : (⟨2, ![1000000, 128]⟩ : Shape).Idx → EReal) (W1 : (⟨2, ![128, 256]⟩ : Shape).Idx → EReal)
    (W2 : (⟨2, ![5, 128]⟩ : Shape).Idx → EReal) (e : Fin 1000000) (c : Fin 5) :
    score hu hv W1 W2 (ix2 e c) = scoreAt hu hv W1 W2 e c := rfl

end Cert.EdgeMlp

end
-- ==== Proof.HostSide.lean ====
/-
  The host operations around the launch, read at an index, at the ideal instance.

  Before the launch the program gathers one user row and one item row per edge (negative indices wrapped
  once, as the reference does), changes their float format (the identity on the extended reals), pads each
  array with 7616 rows of the padding value up to 1007616 rows, and cuts the first weight matrix into its
  left and right `128 × 128` halves, each transposed.  So at a padded row below one million the launch finds
  the gathered row; at feature `k` and hidden unit `d` the transposed halves hold `W1 d k` and
  `W1 d (128 + k)`; the second weight matrix is the argument itself.  After the launch the program drops
  the 7616 padded columns of the `5 × 1007616` output and transposes it: edge `e`, class `c` of the
  result is class `c`, column `e` of the launch's output.
-/
import proofs.«160653_j76605036692176_2_alg».proof.Proof.Gen.KernelIdeal.Frame
import proofs.«160653_j76605036692176_2_alg».proof.Proof.Spec
import Idealize.ShloMosaic.Lib.Pipeline.Value
import Idealize.ShloMosaic.Lib.KernelVsHost
import Idealize.ShloMosaic.Lib.StableHlo.Run

noncomputable section

namespace Cert.KernelIdeal.HostSide

open Cert.KernelIdeal Cert.KernelIdeal.Gen Cert.EdgeMlp
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The gathered user rows: row `e` is the row of `x0` the wrapped index `x4 e` names. -/
abbrev users (x0 : (⟨S100000x128, .f32⟩ : BufTy).Contents (Elt Ideal)) (x4 : (⟨S1000000, .i32⟩ : BufTy).Contents (Elt Ideal)) :
    (⟨S1000000x128, .f32⟩ : BufTy).Contents (Elt Ideal) :=
  Host.gather gather_S100000x128_S1000000x1_S1000000x128_1_0_n_n_0_1_1128 x0
    (broadcastInDim S1000000x1 ![0] bcast_S1000000_S1000000x1_0
      (select (cmpi .slt x4 (broadcastInDim S1000000 ![] bcast_S_S1000000 (constantI S_ 32 0#32)))
        (addi x4 (broadcastInDim S1000000 ![] bcast_S_S1000000 (constantI S_ 32 100000#32))) x4))

/-- The gathered item rows. -/
abbrev items (x1 : (⟨S50000x128, .f32⟩ : BufTy).Contents (Elt Ideal)) (x5 : (⟨S1000000, .i32⟩ : BufTy).Contents (Elt Ideal)) :
    (⟨S1000000x128, .f32⟩ : BufTy).Contents (Elt Ideal) :=
  Host.gather gather_S50000x128_S1000000x1_S1000000x128_1_0_n_n_0_1_1128 x1
    (broadcastInDim S1000000x1 ![0] bcast_S1000000_S1000000x1_0
      (select (cmpi .slt x5 (broadcastInDim S1000000 ![] bcast_S_S1000000 (constantI S_ 32 0#32)))
        (addi x5 (broadcastInDim S1000000 ![] bcast_S_S1000000 (constantI S_ 32 50000#32))) x5))

/-! ## The arrays the launch finds -/

set_option maxHeartbeats 2000000 in
theorem V_v16 (c : Dev nD) : (V m c main_v16 : S1007616x128.Idx → EReal)
    = pad S1007616x128 ![0, 0] ![7616, 0] ![0, 0]
        (truncf .bf16 (users (m ((c : Thread nD τ).loc main_arg0)) (m ((c : Thread nD τ).loc main_arg4))) bitsLt_bf16_f32)
        (sitofp (F := Ideal) .bf16 (constantI S_ 32 0#32)) pads_S1000000x128_S1007616x128_076160_000 h_S_ := by
  dsimp only [V, V0]
  simp only [hostOps0, hostOps0_1, hostOps0_2, hostOps0_3, hostOps0_4, List.flatten_cons, List.flatten_nil, List.append_nil, List.cons_append,
    List.nil_append]
  after_results <;> rfl

set_option maxHeartbeats 2000000 in
theorem V_v17 (c : Dev nD) : (V m c main_v17 : S1007616x128.Idx → EReal)
    = pad S1007616x128 ![0, 0] ![7616, 0] ![0, 0]
        (truncf .bf16 (items (m ((c : Thread nD τ).loc main_arg1)) (m ((c : Thread nD τ).loc main_arg5))) bitsLt_bf16_f32)
        (sitofp (F := Ideal) .bf16 (constantI S_ 32 0#32)) pads_S1000000x128_S1007616x128_076160_000 h_S_ := by
  dsimp only [V, V0]
  simp only [hostOps0, hostOps0_1, hostOps0_2, hostOps0_3, hostOps0_4, List.flatten_cons, List.flatten_nil, List.append_nil, List.cons_append,
    List.nil_append]
  after_results <;> rfl

set_option maxHeartbeats 2000000 in
theorem V_v19 (c : Dev nD) : (V m c main_v19 : S128x128.Idx → EReal)
    = transpose S128x128 [1, 0] (extractStridedSlice S128x128 ![0, 0] (m ((c : Thread nD τ).loc main_arg2)) slices_S128x256_S128x128_0_0)
        transposes_S128x128_S128x128_1_0 := by
  dsimp only [V, V0]
  simp only [hostOps0, hostOps0_1, hostOps0_2, hostOps0_3, hostOps0_4, List.flatten_cons, List.flatten_nil, List.append_nil, List.cons_append,
    List.nil_append]
  after_results <;> rfl

set_option maxHeartbeats 2000000 in
theorem V_v21 (c : Dev nD) : (V m c main_v21 : S128x128.Idx → EReal)
    = transpose S128x128 [1, 0] (extractStridedSlice S128x128 ![0, 128] (m ((c : Thread nD τ).loc main_arg2)) slices_S128x256_S128x128_0_128)
        transposes_S128x128_S128x128_1_0 := by
  dsimp only [V, V0]
  simp only [hostOps0, hostOps0_1, hostOps0_2, hostOps0_3, hostOps0_4, List.flatten_cons, List.flatten_nil, List.append_nil, List.cons_append,
    List.nil_append]
  after_results <;> rfl

/-! ## The same, at an index -/

/-- A padded row below one million is the gathered user row. -/
theorem V_v16_apply (c : Dev nD) (e : Fin 1000000) (k : Fin 128) (r : Fin 1007616) (hr : r.val = e.val) :
    (V m c main_v16 : S1007616x128.Idx → EReal) (ix2 r k)
      = users (m ((c : Thread nD τ).loc main_arg0)) (m ((c : Thread nD τ).loc main_arg4)) (ix2 e k) := by
  rw [V_v16]
  exact pad_apply_of_inside ![0, 0] ![7616, 0] ![0, 0] _ _ pads_S1000000x128_S1007616x128_076160_000 h_S_ (ix2 r k) (ix2 e k) (fun a => match a with
    | ⟨0, _⟩ => by show r.val = 0 + e.val * (0 + 1); omega
    | ⟨1, _⟩ => by show k.val = 0 + k.val * (0 + 1); omega)

/-- A padded row below one million is the gathered item row. -/
theorem V_v17_apply (c : Dev nD) (e : Fin 1000000) (k : Fin 128) (r : Fin 1007616) (hr : r.val = e.val) :
    (V m c main_v17 : S1007616x128.Idx → EReal) (ix2 r k)
      = items (m ((c : Thread nD τ).loc main_arg1)) (m ((c : Thread nD τ).loc main_arg5)) (ix2 e k) := by
  rw [V_v17]
  exact pad_apply_of_inside ![0, 0] ![7616, 0] ![0, 0] _ _ pads_S1000000x128_S1007616x128_076160_000 h_S_ (ix2 r k) (ix2 e k) (fun a => match a with
    | ⟨0, _⟩ => by show r.val = 0 + e.val * (0 + 1); omega
    | ⟨1, _⟩ => by show k.val = 0 + k.val * (0 + 1); omega)

/-- The transposed left half of the first weight matrix. -/
theorem V_v19_apply (c : Dev nD) (k d : Fin 128) :
    (V m c main_v19 : S128x128.Idx → EReal) (ix2 k d) = (m ((c : Thread nD τ).loc main_arg2) : S128x256.Idx → EReal) (ix2 d (lo k)) := by
  rw [V_v19]
  refine (transpose_apply [1, 0] _ transposes_S128x128_S128x128_1_0 (ix2 k d) (ix2 d k) (fun b => match b with
    | ⟨0, _⟩ => rfl
    | ⟨1, _⟩ => rfl)).trans ?_
  exact extractStridedSlice_apply ![0, 0] _ slices_S128x256_S128x128_0_0 (ix2 d k) (ix2 d (lo k)) (fun a => match a with
    | ⟨0, _⟩ => by show d.val = 0 + d.val; omega
    | ⟨1, _⟩ => by show k.val = 0 + k.val; omega)

/-- The transposed right half of the first weight matrix. -/
theorem V_v21_apply (c : Dev nD) (k d : Fin 128) :
    (V m c main_v21 : S128x128.Idx → EReal) (ix2 k d) = (m ((c : Thread nD τ).loc main_arg2) : S128x256.Idx → EReal) (ix2 d (hi k)) := by
  rw [V_v21]
  refine (transpose_apply [1, 0] _ transposes_S128x128_S128x128_1_0 (ix2 k d) (ix2 d k) (fun b => match b with
    | ⟨0, _⟩ => rfl
    | ⟨1, _⟩ => rfl)).trans ?_
  exact extractStridedSlice_apply ![0, 128] _ slices_S128x256_S128x128_0_128 (ix2 d k) (ix2 d (hi k)) (fun a => match a with
    | ⟨0, _⟩ => by show d.val = 0 + d.val; omega
    | ⟨1, _⟩ => by show 128 + k.val = 128 + k.val; rfl)

/-! ## The result after the launch -/

/-- The program's result from the launch's output array `A`: its first million columns, transposed. -/
theorem tail_eq (c : Dev nD) :
    Pipeline.afterTail₀ cfgs (dats m) 0 (V0 m) [hostOps1] c main_v24
      = transpose S1000000x5 [1, 0]
          (extractStridedSlice S5x1000000 ![0, 0] ((dats m 0 c).arrAt 5 cfg0.N : S5x1007616.Idx → EReal) slices_S5x1007616_S5x1000000_0_0)
          transposes_S5x1000000_S1000000x5_1_0 := by
  unfold Pipeline.afterTail₀
  show StableHlo.after hostOps1 _ (Proc.devRef .tc main_v24) = _
  after_results
  have key := Pipeline.withArrays_arr spec0 launch0.win.arr_inj c (V0 m c) (fun w => (dats m 0 c).arrAt w cfg0.N) 5
  exact congrArg (fun z : S5x1007616.Idx → EReal =>
      transpose S1000000x5 [1, 0] (extractStridedSlice S5x1000000 ![0, 0] z slices_S5x1007616_S5x1000000_0_0) transposes_S5x1000000_S1000000x5_1_0)
    key

/-- Edge `e`, class `q` of the result is class `q`, column `e` of the launch's output. -/
theorem tail_apply (c : Dev nD) (e : Fin 1000000) (q : Fin 5) (r : Fin 1007616) (hr : r.val = e.val) :
    (Pipeline.afterTail₀ cfgs (dats m) 0 (V0 m) [hostOps1] c main_v24 : S1000000x5.Idx → EReal) (ix2 e q)
      = ((dats m 0 c).arrAt 5 cfg0.N : S5x1007616.Idx → EReal) (ix2 q r) := by
  rw [tail_eq]
  refine (transpose_apply [1, 0] _ transposes_S5x1000000_S1000000x5_1_0 (ix2 e q) (ix2 q e) (fun b => match b with
    | ⟨0, _⟩ => rfl
    | ⟨1, _⟩ => rfl)).trans ?_
  exact extractStridedSlice_apply ![0, 0] _ slices_S5x1007616_S5x1000000_0_0 (ix2 q e) (ix2 q r) (fun a => match a with
    | ⟨0, _⟩ => by show q.val = 0 + q.val; omega
    | ⟨1, _⟩ => by show r.val = 0 + e.val; omega)

end Cert.KernelIdeal.HostSide

end
-- ==== Proof.KernelScore.lean ====
/-
  The kernel's program ends with the edge scorer of its gathered rows and the two weight matrices.

  The launch's output holds, at class `c` and padded row `r`, the score of row `r` of the padded arrays
  against the transposed weight halves (`Region.final`).  The result keeps the first million rows,
  transposed, and below one million a padded row is the gathered row and the transposed halves are the
  halves of `W1` (`HostSide`): entry by entry this is `scoreAt`.
-/
import proofs.«160653_j76605036692176_2_alg».proof.Proof.Region
import proofs.«160653_j76605036692176_2_alg».proof.Proof.HostSide

noncomputable section

namespace Cert.KernelIdeal.Scored

open Cert.KernelIdeal Cert.KernelIdeal.Gen Cert.KernelIdeal.Region Cert.KernelIdeal.HostSide Cert.EdgeMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The scorer of the arguments on core `c`. -/
abbrev scored (c : Dev nD) : S1000000x5.Idx → EReal :=
  score (users (m ((c.tc : Thread nD τ).loc main_arg0)) (m ((c.tc : Thread nD τ).loc main_arg4)))
    (items (m ((c.tc : Thread nD τ).loc main_arg1)) (m ((c.tc : Thread nD τ).loc main_arg5)))
    (m ((c.tc : Thread nD τ).loc main_arg2)) (m ((c.tc : Thread nD τ).loc main_arg3))

/-- What the lines after the launch leave in the result buffer is the scorer of the arguments. -/
theorem result_score (c : Dev nD) :
    (Pipeline.afterTail₀ cfgs (dats m) 0 (V0 m) [hostOps1] c main_v24 : S1000000x5.Idx → EReal) = scored m c := by
  funext j
  obtain ⟨e, q, rfl⟩ : ∃ (e : Fin 1000000) (q : Fin 5), j = ix2 e q := ⟨j 0, j 1, eq_ix2 j⟩
  have hr : e.val < 1007616 := by have := e.isLt; omega
  rw [tail_apply m c e q ⟨e.val, hr⟩ rfl, Region.final m c]
  show padded _ _ _ _ _ q ⟨e.val, hr⟩ = scoreAt _ _ _ _ e q
  unfold padded scoreAt hiddenUnit
  refine Finset.sum_congr rfl fun d _ => ?_
  refine congrArg₂ (· * ·) (congrFun (V_main_arg3 m c) (ix2 q d))
    (congrArg (max · 0) (congrArg₂ (· + ·) (Finset.sum_congr rfl fun k _ => ?_) (Finset.sum_congr rfl fun k _ => ?_)))
  · exact congrArg₂ (· * ·) (V_v16_apply m c e k ⟨e.val, hr⟩ rfl) (V_v19_apply m c k d)
  · exact congrArg₂ (· * ·) (V_v17_apply m c e k ⟨e.val, hr⟩ rfl) (V_v21_apply m c k d)

/-- The run: every weakly fair execution terminates with the result at the scorer of the arguments and the
    arguments unchanged. -/
theorem run : θ_run defs (onTc (τ := τ) (main (F := Ideal))) ⟨m, fun _ => 0, ρ⟩ fun r => ∀ c : Dev nD,
      r.2.mem ((c.tc : Thread nD τ).loc main_v24) = scored m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v24 (Pipeline.mem_restRefs_of main_v24 (by decide) (by decide))).trans (result_score m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Scored

end
-- ==== Proof.RefScore.lean ====
/-
  The reference's result is the edge scorer of its two gathered row arrays and the two weight matrices.

  The reference joins the gathered user rows and item rows side by side into rows of 256 features,
  multiplies by the transposed first weight matrix, rectifies against zero, and multiplies by the
  transposed second weight matrix.  Read at edge `e` and class `c`: the joined row at a left-half column
  is the user row and at a right-half column the item row, so the 256-term sum splits into its halves
  (`sum_halves`), and the last product is `∑ d, h e d * W2 c d`, the scorer's sum with the two factors
  in the other order.
-/
import proofs.«160653_j76605036692176_2_alg».proof.Proof.Gen.ReferenceIdeal.Read
import proofs.«160653_j76605036692176_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.EdgeMlp

/-- Two arrays of 128-feature rows joined along the feature axis, read in the left half: the first array. -/
theorem cat_lo (a b : FVec Ideal S1000000x128 .f32) (e : Fin 1000000) (k : Fin 128) :
    concatenate S1000000x256 1 [⟨S1000000x128, a⟩, ⟨S1000000x128, b⟩] concatenates_S1000000x128_S1000000x128_S1000000x256_d1 (ix2 e (lo k)) = a (ix2 e k) :=
  concatenate_pair_apply_left (1 : Fin S1000000x256.rank) a b concatenates_S1000000x128_S1000000x128_S1000000x256_d1 (ix2 e (lo k)) rfl (ix2 e k)
    (fun x => match x with
      | ⟨0, _⟩ => rfl
      | ⟨1, _⟩ => rfl)

/-- Read in the right half: the second array, 128 columns back. -/
theorem cat_hi (a b : FVec Ideal S1000000x128 .f32) (e : Fin 1000000) (k : Fin 128) :
    concatenate S1000000x256 1 [⟨S1000000x128, a⟩, ⟨S1000000x128, b⟩] concatenates_S1000000x128_S1000000x128_S1000000x256_d1 (ix2 e (hi k)) = b (ix2 e k) :=
  concatenate_pair_apply_right (1 : Fin S1000000x256.rank) a b concatenates_S1000000x128_S1000000x128_S1000000x256_d1 (ix2 e (hi k)) rfl rfl (ix2 e k)
    (fun x hx => match x, hx with
      | ⟨0, _⟩, _ => rfl
      | ⟨1, _⟩, hx => absurd rfl hx)
    (by show k.val + 128 = 128 + k.val; omega)

/-- The reference's last stage is the scorer of the two gathered arrays and the two weight matrices. -/
theorem ref_score (x0 : (⟨S100000x128, .f32⟩ : BufTy).Contents (Elt Ideal)) (x1 : (⟨S50000x128, .f32⟩ : BufTy).Contents (Elt Ideal))
    (x2 : (⟨S128x256, .f32⟩ : BufTy).Contents (Elt Ideal)) (x3 : (⟨S5x128, .f32⟩ : BufTy).Contents (Elt Ideal))
    (x4 x5 : (⟨S1000000, .i32⟩ : BufTy).Contents (Elt Ideal)) :
    val_main_v19 (F := Ideal) x0 x1 x2 x3 x4 x5
      = score (val_main_v6 (F := Ideal) x0 x4) (val_main_v13 (F := Ideal) x1 x5) x2 x3 := by
  funext j
  obtain ⟨e, c, rfl⟩ : ∃ (e : Fin 1000000) (c : Fin 5), j = ix2 e c := ⟨j 0, j 1, eq_ix2 j⟩
  rw [score_ix2, val_main_v19_apply]
  unfold scoreAt
  refine Finset.sum_congr rfl fun d _ => ?_
  have il : lidx_main_v19 (ix2 e c) d = ix2 e d := funext fun a => Fin.ext (by
    match a with
    | ⟨0, _⟩ => rfl
    | ⟨1, _⟩ => rfl)
  have ir : idx_main_v18 (ridx_main_v19 (ix2 e c) d) = ix2 c d := funext fun a => Fin.ext (by
    match a with
    | ⟨0, _⟩ => rfl
    | ⟨1, _⟩ => rfl)
  rw [val_main_v18_apply, il, ir, mul_comm]
  refine congrArg (x3 (ix2 c d) * ·) ?_
  rw [val_main_v17_apply, val_main_v16_apply, val_main_call0_v0_apply, val_main_call0_cst_apply]
  show max _ (Ideal.ofBits .f32 0x00000000#32) = _
  rw [Ideal.ofBits_zero_f32, sum_halves]
  unfold hiddenUnit
  refine congrArg (max · 0) (congrArg₂ (· + ·) (Finset.sum_congr rfl fun k _ => ?_) (Finset.sum_congr rfl fun k _ => ?_))
  · have jl : lidx_main_v16 (ix2 e d) (lo k) = ix2 e (lo k) := funext fun a => Fin.ext (by
      match a with
      | ⟨0, _⟩ => rfl
      | ⟨1, _⟩ => rfl)
    have jr : idx_main_v15 (ridx_main_v16 (ix2 e d) (lo k)) = ix2 d (lo k) := funext fun a => Fin.ext (by
      match a with
      | ⟨0, _⟩ => rfl
      | ⟨1, _⟩ => rfl)
    rw [val_main_v15_apply, jl, jr]
    unfold val_main_v14
    rw [cat_lo]
  · have jl : lidx_main_v16 (ix2 e d) (hi k) = ix2 e (hi k) := funext fun a => Fin.ext (by
      match a with
      | ⟨0, _⟩ => rfl
      | ⟨1, _⟩ => rfl)
    have jr : idx_main_v15 (ridx_main_v16 (ix2 e d) (hi k)) = ix2 d (hi k) := funext fun a => Fin.ext (by
      match a with
      | ⟨0, _⟩ => rfl
      | ⟨1, _⟩ => rfl)
    rw [val_main_v15_apply, jl, jr]
    unfold val_main_v14
    rw [cat_hi]

end Cert.ReferenceIdeal.RefValue

end
-- ==== Proof.lean ====
/-
  The edge scorer of a bipartite graph: for each of a million edges, gather the user row and the item row,
  apply `Linear(256 → 128)` to the two rows side by side, rectify, and apply `Linear(128 → 5)`.

  The kernel's program gathers the rows on the host, pads them to a whole number of 8192-row blocks, and
  computes the two linear layers block by block, the first as the sum of the products with the left and
  right halves of the weight matrix, the output transposed (classes by edges) and transposed back on the
  host.  The reference joins the two rows and multiplies once by the whole weight matrix.  Over the extended
  reals both are `score` (Proof/Spec.lean) of the same gathered rows and weights: a 256-term sum is the
  sum of its halves, and a product does not depend on the order of its two factors.  Neither fact needs the
  inputs finite.

  The kernel's side is Proof/Payload.lean (the body at an index), Proof/Region.lean (the launch's output
  array), Proof/HostSide.lean (the host lines around the launch) and Proof/KernelScore.lean (their
  composition); the reference's side is Proof/RefScore.lean.  The frames are the generated ones, the
  reference's its generated run; no operation of the kernel was rewritten for the ideal reading, so the
  idealization is the printed program itself.
-/
import proofs.«160653_j76605036692176_2_alg».proof.Defs
import proofs.«160653_j76605036692176_2_alg».proof.Proof.Gen.Kernel
import proofs.«160653_j76605036692176_2_alg».proof.Proof.Gen.Kernel.Frame
import proofs.«160653_j76605036692176_2_alg».proof.Proof.Gen.KernelIdeal
import proofs.«160653_j76605036692176_2_alg».proof.Proof.Gen.KernelIdeal.Frame
import proofs.«160653_j76605036692176_2_alg».proof.Proof.Gen.ReferenceIdeal
import proofs.«160653_j76605036692176_2_alg».proof.Proof.Gen.ReferenceIdeal.Run
import proofs.«160653_j76605036692176_2_alg».proof.Proof.Gen.ReferenceIdeal.Read
import proofs.«160653_j76605036692176_2_alg».proof.Proof.Gen.Pre_finite_inputs
import proofs.«160653_j76605036692176_2_alg».proof.Proof.KernelScore
import proofs.«160653_j76605036692176_2_alg».proof.Proof.RefScore

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's gathered user rows are the kernel program's: the same gather of the same wrapped
    indices. -/
theorem users_eq (x0 : (⟨Cert.ReferenceIdeal.S100000x128, .f32⟩ : BufTy).Contents (Elt Ideal))
    (x4 : (⟨Cert.ReferenceIdeal.S1000000, .i32⟩ : BufTy).Contents (Elt Ideal)) :
    Cert.ReferenceIdeal.Read.val_main_v6 (F := Ideal) x0 x4 = Cert.KernelIdeal.HostSide.users x0 x4 := rfl

/-- The reference's gathered item rows are the kernel program's. -/
theorem items_eq (x1 : (⟨Cert.ReferenceIdeal.S50000x128, .f32⟩ : BufTy).Contents (Elt Ideal))
    (x5 : (⟨Cert.ReferenceIdeal.S1000000, .i32⟩ : BufTy).Contents (Elt Ideal)) :
    Cert.ReferenceIdeal.Read.val_main_v13 (F := Ideal) x1 x5 = Cert.KernelIdeal.HostSide.items x1 x5 := rfl

/-- From memories agreeing on the arguments both programs end with the scorer of the arguments. -/
theorem algebraic : Cert.algebraic_KernelIdeal_ReferenceIdeal := by
  intro m ρ m' ρ' _ hagree
  refine ⟨fun c => Cert.KernelIdeal.Scored.scored m c, Cert.KernelIdeal.Scored.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v19_eq, Cert.ReferenceIdeal.RefValue.ref_score, users_eq, items_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
